-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1024 : Shape := ⟨1, ![1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x2048 .f32) (main_arg1 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S8192x2048 : Shape := ⟨2, ![8192, 2048]⟩
abbrev S1024 : Shape := ⟨1, ![1024]⟩
abbrev S1x1024 : Shape := ⟨2, ![1, 1024]⟩
abbrev S8192x1152 : Shape := ⟨2, ![8192, 1152]⟩
abbrev S1024x2048 : Shape := ⟨2, ![1024, 2048]⟩
abbrev S1024x1152 : Shape := ⟨2, ![1024, 1152]⟩
abbrev S1024x1024 : Shape := ⟨2, ![1024, 1024]⟩
abbrev S1024x1 : Shape := ⟨2, ![1024, 1]⟩
abbrev S1024x127 : Shape := ⟨2, ![1024, 127]⟩
abbrev S8192x1025 : Shape := ⟨2, ![8192, 1025]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S1x1024, .f32⟩
  | .hbm, ⟨3, _⟩ => ⟨S8192x1152, .f32⟩
  | .hbm, ⟨4, _⟩ => ⟨S8192x1025, .f32⟩
  | .local _ .vmem, ⟨0, _⟩ => ⟨S1024x2048, .f32⟩
  | .local _ .vmem, ⟨1, _⟩ => ⟨S1024x2048, .f32⟩
  | .local _ .vmem, ⟨2, _⟩ => ⟨S1x1024, .f32⟩
  | .local _ .vmem, ⟨3, _⟩ => ⟨S1024x1152, .f32⟩
  | .local _ .vmem, ⟨4, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  slices_S1024x2048_o0_0_S1024x1024 : S1024x2048.Slices ![0, 0] S1024x1024
  slices_S1024x2048_o0_1024_S1024x1024 : S1024x2048.Slices ![0, 1024] S1024x1024
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  inb_S1024x1152_S1024x1_0_0 : ∀ a, (![0, 0] : Fin 2 → Nat) a + S1024x1.size a ≤ S1024x1152.size a
  h_S1024x1 : 0 < S1024x1.numel
  inb_S1024x1152_S1024x1024_0_1 : ∀ a, (![0, 1] : Fin 2 → Nat) a + S1024x1024.size a ≤ S1024x1152.size a
  h_S1024x1024 : 0 < S1024x1024.numel
  inb_S1024x1152_S1024x127_0_1025 : ∀ a, (![0, 1025] : Fin 2 → Nat) a + S1024x127.size a ≤ S1024x1152.size a
  h_S1024x127 : 0 < S1024x127.numel
  slices_S8192x1152_S8192x1025_0_0 : S8192x1152.Slices ![0, 0] S8192x1025
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1152.size a ≤ S8192x1152.size a
  hwx0_2 : ∀ i : grid0.Coords, EltTy.bits .f32 = 32 ∨ (Rect.block (s := S8192x1152) S1024x1152.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1025 : Shape := ⟨2, ![8192, 1025]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1025, .f32⟩
  | .hbm, ⟨16, _⟩ => ⟨S_, .f32⟩
  | .hbm, ⟨17, _⟩ => ⟨S8192x1025, .f32⟩
  | .hbm, ⟨18, _⟩ => ⟨S8192x1025, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x1025, .f32⟩
  | .hbm, ⟨26, _⟩ => ⟨S8192x1025, .f32⟩
  | .hbm, ⟨27, _⟩ => ⟨S8192x1025, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x1025, .f32⟩
  | .hbm, ⟨32, _⟩ => ⟨S8192x1025, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  slices_S8192x2048_S8192x1024_0_0 : S8192x2048.Slices ![0, 0] S8192x1024
  slices_S8192x2048_S8192x1024_0_1024 : S8192x2048.Slices ![0, 1024] S8192x1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  concatenates_S8192x1_S8192x1024_S8192x1025_d1 : Shape.Concatenates [S8192x1, S8192x1024] S8192x1025 1
  bcast_S_S8192x1025 : S_.BroadcastsInDim S8192x1025 (![] : Fin 0 → Fin S8192x1025.rank)
  reducesTo_S8192x1025_S8192_d1 : S8192x1025.ReducesTo [1] S8192
  bcast_S_S8192 : S_.BroadcastsInDim S8192 (![] : Fin 0 → Fin S8192.rank)
  bcast_S8192x1_S8192x1025_0_1 : S8192x1.BroadcastsInDim S8192x1025 (![0, 1] : Fin 2 → Fin S8192x1025.rank)

variable [Facts₀]

class Facts : Prop extends Facts₀ where

variable [Facts]
-- ==== Proof.FiniteInputs.lean ====
/-
  The precondition of this certificate computes, for x of shape [8192, 2048] and w of shape [1024],
  all(|x| < +∞) ∧ all(|w| < +∞) as a one-bit scalar. At the ideal instance a float is an extended real,
  |a| is max a (-a), the pattern 0x7F800000 denotes +∞, and the comparison is the strict order of the
  extended reals. So the bit being 1 says max (x i) (-(x i)) < ⊤ at every index i, which excludes both
  ⊤ (max ⊤ ⊥ = ⊤) and ⊥ (max ⊥ ⊤ = ⊤): every entry is (the coercion of) a real number. Likewise for w.
-/
import proofs.«123302_g38981123178868_cont_8to1_b_1868_10_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Proof.FiniteInputs

open Idealize.ShloMosaic

/-- The scalar shape has exactly one index (there is no axis to give a coordinate on). -/
instance subsingleton_scalar_idx : Subsingleton Cert.Pre_finite_inputs.S_.Idx :=
  ⟨fun a b => funext fun d => d.elim0⟩

/-- The binary32 pattern 0x7F800000 (sign 0, exponent all ones, fraction 0) denotes +∞. -/
theorem ofBits_inf : Ideal.ofBits .f32 0x7F800000#32 = (⊤ : EReal) := by
  simp [Ideal.ofBits, Ideal.ieee]

/-- An extended real a with max a (-a) < ⊤ is a real: at ⊤ the maximum is ⊤, and at ⊥ it is -⊥ = ⊤. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- A one-bit word made from a Boolean is 1 exactly when the Boolean is true. -/
theorem ofBool_eq_one (b : Bool) : BitVec.ofBool b = 1#1 ↔ b = true := by cases b <;> decide

/-- One element of the test: if the comparison |a| < +∞ gives 1 at the ideal instance, a is a real. -/
theorem real_of_elem (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [ofBits_inf] at h'
  unfold Ideal.cmp at h'
  rw [ofBool_eq_one] at h'
  exact real_of_abs_lt_top a (of_decide_eq_true h')

/-- If the precondition evaluates to true at the ideal instance, every entry of both inputs is a real number. -/
theorem real_of_pre [Cert.Pre_finite_inputs.Facts]
    (x : FVec Ideal Cert.Pre_finite_inputs.S8192x2048 .f32) (w : FVec Ideal Cert.Pre_finite_inputs.S1024 .f32)
    (h : Cert.Pre_finite_inputs.fn (F := Ideal) x w = fun _ => 1#1) :
    (∀ i, ∃ r : ℝ, x i = (r : EReal)) ∧ (∀ j, ∃ r : ℝ, w j = (r : EReal)) := by
  -- the scalar result read at its one index
  have e := congrFun h ValueIdx.ix0
  dsimp only [Cert.Pre_finite_inputs.fn] at e
  -- the final `and` of the two reductions
  obtain ⟨ex, ew⟩ := IntOp.andi_eq_one.1 e
  refine ⟨fun i => ?_, fun j => ?_⟩
  · -- each reduction by `and` over all axes that is 1 met a 1 at every index
    have hi := Host.reduce_andi_all _ _ _ _ _ ex i
    exact real_of_elem (x i) hi
  · have hj := Host.reduce_andi_all _ _ _ _ _ ew j
    exact real_of_elem (w j) hj

end Cert.Proof.FiniteInputs

end
-- ==== Proof.RowMath.lean ====
/-
  The row mathematics of this certificate, on the extended reals, with no program in sight.

  A row of the input has 2048 entries; its two halves are multiplied entry by entry into 1024 products p_c.
  From them come z1 = 1 - sum_c p_c and z2_c = p_c * w_c, and the result row is the softmax of the 1025 numbers
  (z1, z2_0, ..., z2_1023).  The two programs arrange that softmax differently:

    * one takes the maximum and the sum over all 1025 entries at once, first dividing every entry by 1, and
      ends with a quotient  exp(z_k - M) / S ;
    * the other takes the maximum of the 1024 entries z2 and then of that and z1, adds exp(z1 - M) to the sum of
      the other 1024 exponentials, and ends with a product  exp(z_k - M) * (1 / S).

  A maximum or a sum of 1025 entries splits off its first entry on all extended reals.  The quotient by S is the
  product with the reciprocal as soon as S is not zero, and S is at least exp(z1 - M) > 0 when z1 is not -inf and M
  is not +inf: that is where the finiteness of the inputs is used.
-/
import proofs.«123302_g38981123178868_cont_8to1_b_1868_10_alg».proof.Proof.FiniteInputs
import Idealize.ShloMosaic.PureOps.Ideal
import Idealize.ShloMosaic.PureOps.Ideal.Laws

noncomputable section

namespace Cert.Proof.RowMath

open Idealize.ShloMosaic

/-! ## The exponential and the quotient on the extended reals -/

/-- The exponential is nowhere negative: 0 at -inf, +inf at +inf, the real exponential between. -/
theorem exp_nonneg (x : EReal) : 0 ≤ Ideal.exp x := by
  induction x using EReal.rec with
  | bot => exact le_of_eq (show (0 : EReal) = Ideal.exp ⊥ from rfl)
  | coe r =>
    show (0 : EReal) ≤ ((Real.exp r : ℝ) : EReal)
    exact EReal.coe_nonneg.mpr (Real.exp_pos r).le
  | top => exact le_of_lt (show (0 : EReal) < Ideal.exp ⊤ from EReal.zero_lt_top)

/-- and positive away from -inf. -/
theorem exp_pos {x : EReal} (hx : x ≠ ⊥) : 0 < Ideal.exp x := by
  induction x using EReal.rec with
  | bot => exact absurd rfl hx
  | coe r =>
    show (0 : EReal) < ((Real.exp r : ℝ) : EReal)
    exact EReal.coe_pos.mpr (Real.exp_pos r)
  | top => exact (show (0 : EReal) < Ideal.exp ⊤ from EReal.zero_lt_top)

/-- A difference is -inf only when the minuend is -inf or the subtrahend +inf. -/
theorem sub_ne_bot {x y : EReal} (hx : x ≠ ⊥) (hy : y ≠ ⊤) : x - y ≠ ⊥ := by
  rw [sub_eq_add_neg]
  intro h
  rcases EReal.add_eq_bot_iff.mp h with h | h
  · exact hx h
  · exact hy (EReal.neg_eq_bot_iff.mp h)

/-- Dividing by one changes nothing, on every extended real. -/
theorem div_one (x : EReal) : Ideal.div x 1 = x := by
  have h1 : (1 : EReal)⁻¹ = 1 := by rw [← EReal.coe_one, ← EReal.coe_inv, inv_one]
  rw [Ideal.div, if_neg one_ne_zero, h1, mul_one]

/-- Off zero the quotient is the product with the inverse. -/
theorem div_of_ne_zero (x : EReal) {y : EReal} (hy : y ≠ 0) : Ideal.div x y = x * y⁻¹ := by
  rw [Ideal.div, if_neg hy]

/-- A finite sum of reals, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ## One row's softmax, in the two arrangements -/

variable {n : ℕ}

/-- The maximum of the row `a` and the extra entry `b`: first over `a`, from -inf, then against `b`. -/
def rowMax (a : Fin n → EReal) (b : EReal) : EReal := max (Finset.univ.fold max ⊥ a) b

/-- The normalizer: the extra entry's exponential plus the sum of the row's. -/
def rowDen (a : Fin n → EReal) (b : EReal) : EReal :=
  Ideal.exp (b - rowMax a b) + ∑ c, Ideal.exp (a c - rowMax a b)

/-- The extra entry's share, as a product with the reciprocal of the normalizer. -/
def head (a : Fin n → EReal) (b : EReal) : EReal := Ideal.exp (b - rowMax a b) * Ideal.div 1 (rowDen a b)

/-- Entry `c`'s share, likewise. -/
def tail (a : Fin n → EReal) (b : EReal) (c : Fin n) : EReal := Ideal.exp (a c - rowMax a b) * Ideal.div 1 (rowDen a b)

/-- The softmax of `n + 1` numbers taken all at once: every entry divided by one, the maximum from -inf taken
    once more against -inf, the sum started from zero, a quotient at the end. -/
def softmax (z : Fin (n + 1) → EReal) (k : Fin (n + 1)) : EReal :=
  Ideal.div (Ideal.exp (Ideal.div (z k) 1 - max ⊥ (Finset.univ.fold max ⊥ fun i => Ideal.div (z i) 1)))
    (0 + ∑ i, Ideal.exp (Ideal.div (z i) 1 - max ⊥ (Finset.univ.fold max ⊥ fun i => Ideal.div (z i) 1)))

/-- The maximum over `b` followed by the row, taken once more against -inf, is the row's maximum against `b`:
    both are the least upper bound of the same numbers. -/
theorem max_cons (a : Fin n → EReal) (b : EReal) :
    max ⊥ (Finset.univ.fold max ⊥ (Fin.cons b a : Fin (n + 1) → EReal)) = rowMax a b := by
  unfold rowMax
  refine eq_of_forall_ge_iff fun c => ?_
  simp only [max_le_iff, Finset.fold_max_le, Finset.mem_univ, forall_true_left, bot_le, true_and,
    Fin.forall_fin_succ, Fin.cons_zero, Fin.cons_succ]
  exact and_comm

/-- The row's maximum against `b` is not +inf when no entry is. -/
theorem rowMax_ne_top {a : Fin n → EReal} {b : EReal} (ha : ∀ c, a c ≠ ⊤) (hb : b ≠ ⊤) : rowMax a b ≠ ⊤ := by
  unfold rowMax
  refine ne_of_lt (max_lt ?_ (lt_top_iff_ne_top.mpr hb))
  exact (Finset.fold_max_lt (s := Finset.univ) (f := a) (b := ⊥) (c := ⊤)).2 ⟨bot_lt_top, fun x _ => lt_top_iff_ne_top.mpr (ha x)⟩

/-- The normalizer is positive once the extra entry is not -inf and the maximum not +inf. -/
theorem rowDen_pos {a : Fin n → EReal} {b : EReal} (hb : b ≠ ⊥) (hM : rowMax a b ≠ ⊤) : 0 < rowDen a b := by
  unfold rowDen
  exact add_pos_of_pos_of_nonneg (exp_pos (sub_ne_bot hb hM)) (Finset.sum_nonneg fun c _ => exp_nonneg _)

/-- The all-at-once normalizer of `b` followed by the row is the split one. -/
theorem den_cons (a : Fin n → EReal) (b : EReal) :
    (0 + ∑ i, Ideal.exp (Ideal.div ((Fin.cons b a : Fin (n + 1) → EReal) i) 1
        - max ⊥ (Finset.univ.fold max ⊥ fun i => Ideal.div ((Fin.cons b a : Fin (n + 1) → EReal) i) 1)))
      = rowDen a b := by
  simp only [div_one]
  rw [show (fun i => (Fin.cons b a : Fin (n + 1) → EReal) i) = Fin.cons b a from rfl, max_cons, zero_add,
    Fin.sum_univ_succ]
  simp only [Fin.cons_zero, Fin.cons_succ]
  rfl

/-- The all-at-once softmax of `b` followed by the row, at the first place, is the product form's extra share. -/
theorem softmax_cons_zero (a : Fin n → EReal) (b : EReal) (hb : b ≠ ⊥) (hM : rowMax a b ≠ ⊤) :
    softmax (Fin.cons b a) 0 = head a b := by
  have hS : rowDen a b ≠ 0 := (rowDen_pos hb hM).ne'
  unfold softmax head
  rw [den_cons, div_of_ne_zero _ hS, div_of_ne_zero _ hS, one_mul]
  simp only [div_one]
  rw [show (fun i => (Fin.cons b a : Fin (n + 1) → EReal) i) = Fin.cons b a from rfl, max_cons, Fin.cons_zero]

/-- and at place `c + 1` it is entry `c`'s share. -/
theorem softmax_cons_succ (a : Fin n → EReal) (b : EReal) (hb : b ≠ ⊥) (hM : rowMax a b ≠ ⊤) (c : Fin n) :
    softmax (Fin.cons b a) c.succ = tail a b c := by
  have hS : rowDen a b ≠ 0 := (rowDen_pos hb hM).ne'
  unfold softmax tail
  rw [den_cons, div_of_ne_zero _ hS, div_of_ne_zero _ hS, one_mul]
  simp only [div_one]
  rw [show (fun i => (Fin.cons b a : Fin (n + 1) → EReal) i) = Fin.cons b a from rfl, max_cons, Fin.cons_succ]

/-! ## The row of this kernel: 2048 entries, 1024 weights, 1025 results -/

/-- Column `c` of the first half of a row, -/
def lo (c : Fin 1024) : Fin 2048 := ⟨c.val, by have := c.isLt; omega⟩
/-- and of the second half. -/
def hi (c : Fin 1024) : Fin 2048 := ⟨1024 + c.val, by have := c.isLt; omega⟩

/-- The product of the two halves at column `c`. -/
def prod (row : Fin 2048 → EReal) (c : Fin 1024) : EReal := row (lo c) * row (hi c)
/-- The weighted products. -/
def z2 (row : Fin 2048 → EReal) (w : Fin 1024 → EReal) (c : Fin 1024) : EReal := prod row c * w c
/-- One minus the sum of the products. -/
def z1 (row : Fin 2048 → EReal) : EReal := 1 - ∑ c, prod row c

/-- The result row in the all-at-once arrangement: the softmax of z1 followed by z2. -/
def outRow (row : Fin 2048 → EReal) (w : Fin 1024 → EReal) (k : Fin 1025) : EReal :=
  softmax (Fin.cons (z1 row) (z2 row w)) k

/-- The result row in the split arrangement: the extra share first, then the entries' shares. -/
def kerRow (row : Fin 2048 → EReal) (w : Fin 1024 → EReal) (k : Fin 1025) : EReal :=
  if h : k.val = 0 then head (z2 row w) (z1 row)
  else tail (z2 row w) (z1 row) ⟨k.val - 1, by have := k.isLt; omega⟩

/-- On a row of reals with real weights the two arrangements give the same 1025 numbers. -/
theorem kerRow_eq_outRow (row : Fin 2048 → EReal) (w : Fin 1024 → EReal)
    (hrow : ∀ k, ∃ r : ℝ, row k = (r : EReal)) (hw : ∀ c, ∃ r : ℝ, w c = (r : EReal)) :
    kerRow row w = outRow row w := by
  choose f hf using hrow
  choose g hg using hw
  have hp : ∀ c, prod row c = ((f (lo c) * f (hi c) : ℝ) : EReal) := fun c => by
    unfold prod; rw [hf (lo c), hf (hi c), EReal.coe_mul]
  have hz1 : z1 row = ((1 - ∑ c, f (lo c) * f (hi c) : ℝ) : EReal) := by
    unfold z1; simp only [hp]; rw [coe_sum, EReal.coe_sub, EReal.coe_one]
  have hz2 : ∀ c, z2 row w c = ((f (lo c) * f (hi c) * g c : ℝ) : EReal) := fun c => by
    unfold z2; rw [hp c, hg c, ← EReal.coe_mul]
  have hb : z1 row ≠ ⊥ := by rw [hz1]; exact EReal.coe_ne_bot _
  have hM : rowMax (z2 row w) (z1 row) ≠ ⊤ :=
    rowMax_ne_top (fun c => by rw [hz2 c]; exact EReal.coe_ne_top _) (by rw [hz1]; exact EReal.coe_ne_top _)
  funext k
  unfold kerRow outRow
  split
  · next h =>
    obtain rfl : k = 0 := Fin.ext h
    exact (softmax_cons_zero _ _ hb hM).symm
  · next h =>
    have hk : k = Fin.succ (⟨k.val - 1, by have := k.isLt; omega⟩ : Fin 1024) := Fin.ext (by
      show k.val = (k.val - 1) + 1; omega)
    have e := softmax_cons_succ (z2 row w) (z1 row) hb hM ⟨k.val - 1, by have := k.isLt; omega⟩
    rw [← hk] at e
    exact e.symm

end Cert.Proof.RowMath

end
-- ==== Proof.Spec.lean ====
/-
  The result of this certificate as ONE function of the two argument arrays.

  x is an [8192, 2048] array and w a [1024] array; the result is [8192, 1025].  Row r of the result depends on
  row r of x and on w alone: it is the softmax of (z1, z2_0, ..., z2_1023) built from that row (the row mathematics).
  The function is stated twice, once per arrangement of the softmax, and the two agree wherever every entry of x
  and of w is a real number.
-/
import proofs.«123302_g38981123178868_cont_8to1_b_1868_10_alg».proof.Proof.RowMath
import Idealize.ShloMosaic.Lib.ValueIdx

noncomputable section

namespace Cert.Proof.Spec

open Idealize.ShloMosaic Idealize.ShloMosaic.ValueIdx Cert.Proof.RowMath

/-- Row `r` of x, as a function of the column. -/
def rowOf (X : (⟨2, ![8192, 2048]⟩ : Shape).Idx → EReal) (r : Fin 8192) : Fin 2048 → EReal := fun k => X (ix2 r k)

/-- w, as a function of the column. -/
def wOf (W : (⟨1, ![1024]⟩ : Shape).Idx → EReal) : Fin 1024 → EReal := fun c => W (ix1 c)

/-- The result with every row's softmax taken all at once. -/
def Gref (X : (⟨2, ![8192, 2048]⟩ : Shape).Idx → EReal) (W : (⟨1, ![1024]⟩ : Shape).Idx → EReal) :
    (⟨2, ![8192, 1025]⟩ : Shape).Idx → EReal :=
  fun j => outRow (rowOf X (j 0)) (wOf W) (j 1)

/-- The result with every row's softmax split into the extra entry and the rest. -/
def Gker (X : (⟨2, ![8192, 2048]⟩ : Shape).Idx → EReal) (W : (⟨1, ![1024]⟩ : Shape).Idx → EReal) :
    (⟨2, ![8192, 1025]⟩ : Shape).Idx → EReal :=
  fun j => kerRow (rowOf X (j 0)) (wOf W) (j 1)

/-- On arrays of reals the two are one function. -/
theorem Gker_eq_Gref (X : (⟨2, ![8192, 2048]⟩ : Shape).Idx → EReal) (W : (⟨1, ![1024]⟩ : Shape).Idx → EReal)
    (hX : ∀ i, ∃ r : ℝ, X i = (r : EReal)) (hW : ∀ j, ∃ r : ℝ, W j = (r : EReal)) : Gker X W = Gref X W :=
  funext fun j => congrFun (kerRow_eq_outRow (rowOf X (j 0)) (wOf W) (fun k => hX _) (fun c => hW _)) (j 1)

end Cert.Proof.Spec

end
-- ==== Proof.RefRead.lean ====
/-
  The reference program's last stage, read index by index, is the specification function: at row r and column k
  it is the all-at-once softmax of the 1025 numbers (z1, z2_0, ..., z2_1023) of row r, at k.

  Stage by stage, on the extended reals.  The two half-rows multiply into the products p_c = x(r, c) * x(r, 1024 + c);
  their sum over c, started from 0, gives z1 = 1 - sum_c p_c as a column of height one; the products times the
  weights give z2_c = p_c * w_c.  The concatenation along the columns puts z1 at column 0 and z2_c at column c + 1,
  so row r of it is z1 followed by z2.  Every entry is divided by one; the reduction by maximum along the columns,
  started from -inf, is the fold of max from -inf over the 1025 entries, and it is taken once more against -inf; the
  exponential of each entry less that maximum is summed along the columns from 0, and the last stage is the quotient
  of the exponential by that sum.  That is the softmax of the row mathematics, term for term; the division by one and
  the second maximum are kept as they stand, because that definition has them too.
-/
import proofs.«123302_g38981123178868_cont_8to1_b_1868_10_alg».proof.Proof.Spec
import proofs.«123302_g38981123178868_cont_8to1_b_1868_10_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Idealize.ShloMosaic Cert.ReferenceIdeal
open Idealize.ShloMosaic.ValueIdx Cert.ReferenceIdeal.Read Cert.ReferenceIdeal.Gen Cert.Proof.RowMath Cert.Proof.Spec

/-! ## The constants -/

/-- The binary32 pattern 0x3F800000 (sign 0, biased exponent 127, fraction 0) denotes 1. -/
theorem ofBits_one : Ideal.ofBits .f32 0x3F800000#32 = (1 : EReal) := by
  simp [Ideal.ofBits, Ideal.ieee, -EReal.coe_mul]; norm_num

/-- The binary32 pattern 0xFF800000 (sign 1, exponent all ones, fraction 0) denotes -∞. -/
theorem ofBits_neg_inf : Ideal.ofBits .f32 0xFF800000#32 = (⊥ : EReal) := by
  simp [Ideal.ofBits, Ideal.ieee]

variable (X : (⟨S8192x2048, .f32⟩ : BufTy).Contents (Elt Ideal)) (W : (⟨S1024, .f32⟩ : BufTy).Contents (Elt Ideal))

/-! ## The products, their sum, and the two kinds of entries -/

/-- The elementwise product of the two half-rows, at row r and column c. -/
theorem v2_at (r : Fin 8192) (c : Fin 1024) : val_main_v2 (F := Ideal) X (ix2 r c) = prod (rowOf X r) c := by
  rw [val_main_v2_apply, val_main_v0_apply, val_main_v1_apply, Ideal.mulf_def]
  have e0 : idx_main_v0 (ix2 r c) = ix2 r (lo c) :=
    funext fun a => Fin.ext (by match a with | ⟨0, _⟩ => rfl | ⟨1, _⟩ => rfl)
  have e1 : idx_main_v1 (ix2 r c) = ix2 r (hi c) :=
    funext fun a => Fin.ext (by match a with | ⟨0, _⟩ => rfl | ⟨1, _⟩ => rfl)
  rw [e0, e1]
  rfl

/-- The row sum of the products, started from zero. -/
theorem v3_at (r : Fin 8192) : val_main_v3 (F := Ideal) X (ix1 r) = ∑ c, prod (rowOf X r) c := by
  rw [val_main_v3_apply, val_main_cst_apply, Ideal.ofBits_def, Ideal.ofBits_zero_f32, zero_add]
  refine Finset.sum_congr rfl fun c _ => ?_
  have e : idx_main_v3 (ix1 r) c = ix2 r c :=
    funext fun a => Fin.ext (by match a with | ⟨0, _⟩ => rfl | ⟨1, _⟩ => rfl)
  rw [e, v2_at]

/-- One minus that sum, as a column of height one. -/
theorem v6_at (r : Fin 8192) : val_main_v6 (F := Ideal) X (ix2 r (0 : Fin 1)) = z1 (rowOf X r) := by
  rw [val_main_v6_apply, val_main_v5_apply, val_main_cst_0_apply, val_main_v4_apply, Ideal.subf_def, Ideal.ofBits_def,
    ofBits_one]
  have e : idx_main_v4 (ix2 r (0 : Fin 1)) = ix1 r :=
    funext fun a => Fin.ext (by match a with | ⟨0, _⟩ => rfl)
  rw [e, v3_at]
  rfl

/-- The weighted products. -/
theorem v10_at (r : Fin 8192) (c : Fin 1024) :
    val_main_v10 (F := Ideal) X W (ix2 r c) = z2 (rowOf X r) (wOf W) c := by
  rw [val_main_v10_apply, val_main_v7_apply, val_main_v9_apply, val_main_v8_apply, ← val_main_v2_apply, v2_at,
    Ideal.mulf_def]
  have e : idx_main_v8 (idx_main_v9 (ix2 r c)) = ix1 c :=
    funext fun a => Fin.ext (by match a with | ⟨0, _⟩ => rfl)
  rw [e]
  rfl

/-! ## The joined row: one minus the sum, then the weighted products -/

/-- The 1025 numbers whose softmax row r of the result is. -/
def zrow (r : Fin 8192) : Fin 1025 → EReal := Fin.cons (z1 (rowOf X r)) (z2 (rowOf X r) (wOf W))

/-- The concatenation along the columns, at row r and column k, is entry k of that row: column 0 comes from the
    column of height one, column c + 1 from column c of the weighted products. -/
theorem v11_at (r : Fin 8192) (k : Fin 1025) : val_main_v11 (F := Ideal) X W (ix2 r k) = zrow X W r k := by
  unfold val_main_v11 zrow
  induction k using Fin.cases with
  | zero =>
    rw [concatenate_pair_apply_left (1 : Fin S8192x1025.rank) _ _ concatenates_S8192x1_S8192x1024_S8192x1025_d1
      (ix2 r (0 : Fin 1025)) rfl (ix2 r (0 : Fin 1)) (fun b => by match b with | ⟨0, _⟩ => rfl | ⟨1, _⟩ => rfl)]
    rw [v6_at]; rfl
  | succ c =>
    rw [concatenate_pair_apply_right (1 : Fin S8192x1025.rank) _ _ concatenates_S8192x1_S8192x1024_S8192x1025_d1
      (ix2 r c.succ) rfl rfl (ix2 r c)
      (fun b hb => by match b with | ⟨0, _⟩ => rfl | ⟨1, _⟩ => exact absurd rfl hb)
      (by show c.val + 1 = c.succ.val; rfl)]
    rw [v10_at]; rfl

/-- Every entry divided by one. -/
theorem v13_at (r : Fin 8192) (k : Fin 1025) :
    val_main_v13 (F := Ideal) X W (ix2 r k) = Ideal.div (zrow X W r k) 1 := by
  rw [val_main_v13_apply, val_main_v12_apply, val_main_cst_1_apply, Ideal.hostDivf_def, Ideal.ofBits_def, ofBits_one,
    v11_at]

/-! ## The row maximum -/

/-- Row index r with column k put back is (r, k). -/
theorem lift_row (h : S8192x1025.Reduces [1] S8192) (r : Fin 8192) (k : Fin (S8192x1025.size 1)) :
    h.lift (ix1 r) k = ix2 r (⟨k.val, k.isLt⟩ : Fin 1025) := by
  funext c; apply Fin.ext
  fin_cases c <;> rfl

/-- The reduction by maximum along the columns, started from -∞, is the fold of max from ⊥ over the 1025 entries. -/
theorem v14_at (r : Fin 8192) :
    val_main_v14 (F := Ideal) X W (ix1 r) = Finset.univ.fold max ⊥ (fun k : Fin 1025 => Ideal.div (zrow X W r k) 1) := by
  have h : S8192x1025.Reduces [1] S8192 := by decide
  unfold val_main_v14
  rw [Host.reduce_eq_fold_single FloatOps.maximumf _ _ reducesTo_S8192x1025_S8192_d1 h h_S_]
  have hf : (val_main_v13 (F := Ideal) X W ∘ h.lift (ix1 r)) = fun k : Fin 1025 => Ideal.div (zrow X W r k) 1 :=
    funext fun k => (congrArg (val_main_v13 (F := Ideal) X W) (lift_row h r k)).trans (v13_at X W r k)
  have hi : val_main_cst_2 (F := Ideal) (Shape.Idx.first h_S_) = (⊥ : EReal) := by
    rw [val_main_cst_2_apply, Ideal.ofBits_def, ofBits_neg_inf]
  rw [hi]
  exact congrArg (fun f => Finset.fold max (⊥ : EReal) f (Finset.univ : Finset (Fin 1025))) hf

/-- The maximum once more against -∞. -/
theorem v16_at (r : Fin 8192) :
    val_main_v16 (F := Ideal) X W (ix1 r)
      = max ⊥ (Finset.univ.fold max ⊥ (fun k : Fin 1025 => Ideal.div (zrow X W r k) 1)) := by
  rw [val_main_v16_apply, val_main_v15_apply, val_main_cst_3_apply, Ideal.maximumf_def, Ideal.ofBits_def, ofBits_neg_inf,
    v14_at]

/-! ## The exponentials, their sum, and the quotient -/

/-- The exponential of each entry less the row maximum. -/
theorem v20_at (r : Fin 8192) (k : Fin 1025) :
    val_main_v20 (F := Ideal) X W (ix2 r k)
      = Ideal.exp (Ideal.div (zrow X W r k) 1
          - max ⊥ (Finset.univ.fold max ⊥ (fun i : Fin 1025 => Ideal.div (zrow X W r i) 1))) := by
  rw [val_main_v20_apply, val_main_v19_apply, val_main_v18_apply, val_main_v17_apply, Ideal.hostUnary_exp_def,
    Ideal.subf_def, v13_at]
  have e : idx_main_v17 (idx_main_v18 (ix2 r k)) = ix1 r :=
    funext fun a => Fin.ext (by match a with | ⟨0, _⟩ => rfl)
  rw [e, v16_at]

/-- The row sum of the exponentials, started from zero. -/
theorem v21_at (r : Fin 8192) :
    val_main_v21 (F := Ideal) X W (ix1 r)
      = 0 + ∑ k : Fin 1025, Ideal.exp (Ideal.div (zrow X W r k) 1
          - max ⊥ (Finset.univ.fold max ⊥ (fun i : Fin 1025 => Ideal.div (zrow X W r i) 1))) := by
  rw [val_main_v21_apply, val_main_cst_4_apply, Ideal.ofBits_def, Ideal.ofBits_zero_f32]
  refine congrArg (0 + ·) (Finset.sum_congr rfl fun k _ => ?_)
  have e : idx_main_v21 (ix1 r) k = ix2 r k :=
    funext fun a => Fin.ext (by match a with | ⟨0, _⟩ => rfl | ⟨1, _⟩ => rfl)
  rw [e, v20_at]

/-- The last stage at row r and column k: the all-at-once softmax of the row's 1025 numbers, at k. -/
theorem v24_at (r : Fin 8192) (k : Fin 1025) :
    val_main_v24 (F := Ideal) X W (ix2 r k) = softmax (zrow X W r) k := by
  rw [val_main_v24_apply, val_main_v23_apply, val_main_v22_apply, Ideal.hostDivf_def, v20_at]
  have e : idx_main_v22 (idx_main_v23 (ix2 r k)) = ix1 r :=
    funext fun a => Fin.ext (by match a with | ⟨0, _⟩ => rfl)
  rw [e, v21_at]
  rfl

/-- The reference's last stage is the all-at-once softmax of every row. -/
theorem val_eq_Gref (X : (⟨S8192x2048, .f32⟩ : BufTy).Contents (Elt Ideal)) (W : (⟨S1024, .f32⟩ : BufTy).Contents (Elt Ideal)) :
    Cert.ReferenceIdeal.Read.val_main_v24 (F := Ideal) X W = Cert.Proof.Spec.Gref X W := by
  funext j
  obtain ⟨r, k, rfl⟩ : ∃ (r : Fin 8192) (k : Fin 1025), j = ix2 r k := ⟨j 0, j 1, eq_ix2 j⟩
  rw [v24_at]
  rfl

end Cert.ReferenceIdeal.RefValue

end
-- ==== Proof.KernelPay.lean ====
/-
  The kernel body's arithmetic, read at an index, at the ideal instance.

  The body loads a block of 1024 rows of x (all 2048 columns) and the 1024 weights as a [1, 1024] block, and stores
  three pieces of a [1024, 1152] output block: column 0, columns 1..1024 and the 127 columns after them.  Each stored
  value is a pure term of the two loads.  Row r of those terms depends on row r of the x block and on the weights
  only, and is the split arrangement of the row mathematics: column 0 holds the extra entry's share, column c + 1
  entry c's share, the padding columns zero.
-/
import proofs.«123302_g38981123178868_cont_8to1_b_1868_10_alg».proof.Proof.Spec
import proofs.«123302_g38981123178868_cont_8to1_b_1868_10_alg».proof.Proof.RefRead
import proofs.«123302_g38981123178868_cont_8to1_b_1868_10_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Proof.RowMath

/-! ## Two constants -/

/-- The pattern of 1.0 denotes the real one. -/
theorem ofBits_one : Ideal.ofBits .f32 0x3F800000#32 = 1 := by
  simp [Ideal.ofBits, Ideal.ieee, -EReal.coe_mul]; norm_num

/-- The pattern with sign 1, exponent all ones and fraction 0 denotes -inf. -/
theorem ofBits_neg_inf : Ideal.ofBits .f32 0xFF800000#32 = (⊥ : EReal) := by
  simp [Ideal.ofBits, Ideal.ieee]

/-! ## Layout operations on a column -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- An [a, 1] array broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along a row -/

/-- The reduced index r with column k put back is (r, k). -/
theorem lift_row (h : S1024x1024.Reduces [1] S1024) (r : Fin 1024) (k : Fin (S1024x1024.size 1)) :
    h.lift (ix1 r) k = ix2 r (⟨k.val, k.isLt⟩ : Fin 1024) := by
  funext c; apply Fin.ext
  fin_cases c <;> rfl

/-- A lane sum of a [1024, 1024] array, at row r, is the sum of that row. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) := by
  refine (Ideal.multiReduction_add_single src 0x00000000#32 h hφ hacc (ix1 r)).trans ?_
  exact Finset.sum_congr rfl fun k _ => congrArg src (lift_row h r k)

/-- A lane maximum of a [1024, 1024] array, at row r, is the maximum of that row taken from -inf. -/
theorem rowMaxOp_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 1024)).fold max ⊥ (fun c => src (ix2 r c)) := by
  refine (Ideal.multiReduction_maximumf_single src 0xFF800000#32 h hφ hacc (ix1 r)).trans ?_
  show (Finset.univ : Finset (Fin 1024)).fold max (Ideal.ofBits .f32 0xFF800000#32) (fun k => src (h.lift (ix1 r) k)) = _
  rw [ofBits_neg_inf]
  exact Finset.fold_congr fun k _ => congrArg src (lift_row h r k)

/-! ## The stored values, row by row -/

/-- Row r of the x block, as a function of the column. -/
def brow (x0 : Vec Ideal S1024x2048 .f32) (r : Fin 1024) : Fin 2048 → EReal := fun k => x0 (ix2 r k)
/-- The weights block, as a function of the column. -/
def bw (x1 : Vec Ideal S1x1024 .f32) : Fin 1024 → EReal := fun c => x1 (ix2 (0 : Fin 1) c)

/-- The product of the two halves of a row. -/
theorem pay1_apply (x0 : Vec Ideal S1024x2048 .f32) (r c : Fin 1024) :
    k0_pay1 x0 (ix2 r c) = prod (brow x0 r) c := by
  unfold k0_pay1 prod brow
  exact congrArg₂ (fun a b : EReal => a * b)
    (slice2_axis1_apply 0 x0 _ r c (lo c) (by show c.val = 0 + c.val; omega))
    (slice2_axis1_apply 1024 x0 _ r c (hi c) rfl)

/-- One minus the row's sum of products. -/
theorem pay2_apply (x0 : Vec Ideal S1024x2048 .f32) (r : Fin 1024) (u : Fin 1) :
    k0_pay2 x0 (ix2 r u) = z1 (brow x0 r) := by
  unfold k0_pay2 z1
  refine congrArg₂ (fun a b : EReal => a - b) ofBits_one ?_
  refine (shapeCast_a_a1_apply _ _ r u).trans ?_
  refine (rowSum_apply _ _ _ _ r).trans ?_
  exact Finset.sum_congr rfl fun c _ => pay1_apply x0 r c

/-- The weighted products. -/
theorem pay3_apply (x0 : Vec Ideal S1024x2048 .f32) (x1 : Vec Ideal S1x1024 .f32) (r c : Fin 1024) :
    k0_pay3 x0 x1 (ix2 r c) = z2 (brow x0 r) (bw x1) c := by
  unfold k0_pay3 z2
  refine congrArg₂ (fun a b : EReal => a * b) (pay1_apply x0 r c) ?_
  exact (broadcastTo_1b_ab_apply _ _ r c).trans (congrFun (shapeCast_self x1 _) _)

/-- The exponential of a vector, read at an index. -/
theorem exp_at {s : Shape} {φ : FTy} (v : FVec Ideal s φ) (i : s.Idx) : exp v i = Ideal.exp (v i) := rfl

/-- The row's maximum against the extra entry. -/
theorem pay4_apply (x0 : Vec Ideal S1024x2048 .f32) (x1 : Vec Ideal S1x1024 .f32) (r : Fin 1024) (u : Fin 1) :
    k0_pay4 x0 x1 (ix2 r u) = rowMax (z2 (brow x0 r) (bw x1)) (z1 (brow x0 r)) := by
  unfold k0_pay4 rowMax
  refine (maximumf_apply _ _ (ix2 r u)).trans ?_
  refine congrArg₂ (fun a b : EReal => max a b) ?_ (pay2_apply x0 r u)
  refine (shapeCast_a_a1_apply _ _ r u).trans ?_
  refine (rowMaxOp_apply _ _ _ _ r).trans ?_
  exact Finset.fold_congr fun c _ => pay3_apply x0 x1 r c

/-- The extra entry's exponential. -/
theorem pay5_apply (x0 : Vec Ideal S1024x2048 .f32) (x1 : Vec Ideal S1x1024 .f32) (r : Fin 1024) (u : Fin 1) :
    k0_pay5 x0 x1 (ix2 r u)
      = Ideal.exp (z1 (brow x0 r) - rowMax (z2 (brow x0 r) (bw x1)) (z1 (brow x0 r))) := by
  unfold k0_pay5
  refine (exp_at _ (ix2 r u)).trans ?_
  refine congrArg Ideal.exp ?_
  refine (subf_apply _ _ (ix2 r u)).trans ?_
  exact congrArg₂ (fun a b : EReal => a - b) (pay2_apply x0 r u) (pay4_apply x0 x1 r u)

/-- Entry c's exponential. -/
theorem pay6_apply (x0 : Vec Ideal S1024x2048 .f32) (x1 : Vec Ideal S1x1024 .f32) (r c : Fin 1024) :
    k0_pay6 x0 x1 (ix2 r c)
      = Ideal.exp (z2 (brow x0 r) (bw x1) c - rowMax (z2 (brow x0 r) (bw x1)) (z1 (brow x0 r))) := by
  unfold k0_pay6
  refine (exp_at _ (ix2 r c)).trans ?_
  refine congrArg Ideal.exp ?_
  refine (subf_apply _ _ (ix2 r c)).trans ?_
  exact congrArg₂ (fun a b : EReal => a - b) (pay3_apply x0 x1 r c)
    ((broadcastTo_a1_ab_apply _ _ r c).trans (pay4_apply x0 x1 r 0))

/-- The reciprocal of the normalizer. -/
theorem pay7_apply (x0 : Vec Ideal S1024x2048 .f32) (x1 : Vec Ideal S1x1024 .f32) (r : Fin 1024) (u : Fin 1) :
    k0_pay7 x0 x1 (ix2 r u) = Ideal.div 1 (rowDen (z2 (brow x0 r) (bw x1)) (z1 (brow x0 r))) := by
  unfold k0_pay7 rowDen
  refine (divf_apply _ _ (ix2 r u)).trans ?_
  refine congrArg₂ (fun a b : EReal => Ideal.div a b) ofBits_one ?_
  refine (addf_apply _ _ (ix2 r u)).trans ?_
  refine congrArg₂ (fun a b : EReal => a + b) (pay5_apply x0 x1 r u) ?_
  refine (shapeCast_a_a1_apply _ _ r u).trans ?_
  refine (rowSum_apply _ _ _ _ r).trans ?_
  exact Finset.sum_congr rfl fun c _ => pay6_apply x0 x1 r c

/-- Column 0 of the output block: the extra entry's share. -/
theorem pay8_apply (x0 : Vec Ideal S1024x2048 .f32) (x1 : Vec Ideal S1x1024 .f32) (r : Fin 1024) (u : Fin 1) :
    k0_pay8 x0 x1 (ix2 r u) = head (z2 (brow x0 r) (bw x1)) (z1 (brow x0 r)) := by
  unfold k0_pay8 head
  refine (mulf_apply _ _ (ix2 r u)).trans ?_
  exact congrArg₂ (fun a b : EReal => a * b) (pay5_apply x0 x1 r u) (pay7_apply x0 x1 r u)

/-- Columns 1..1024 of the output block: the entries' shares. -/
theorem pay9_apply (x0 : Vec Ideal S1024x2048 .f32) (x1 : Vec Ideal S1x1024 .f32) (r c : Fin 1024) :
    k0_pay9 x0 x1 (ix2 r c) = tail (z2 (brow x0 r) (bw x1)) (z1 (brow x0 r)) c := by
  unfold k0_pay9 tail
  refine (mulf_apply _ _ (ix2 r c)).trans ?_
  exact congrArg₂ (fun a b : EReal => a * b) (pay6_apply x0 x1 r c)
    ((broadcastTo_a1_ab_apply _ _ r c).trans (pay7_apply x0 x1 r 0))

/-- The padding columns: zero. -/
theorem pay10_apply (r : Fin 1024) (c : Fin 127) : k0_pay10 (F := Ideal) (ix2 r c) = 0 := by
  unfold k0_pay10
  exact Ideal.ofBits_zero_f32

end Cert.KernelIdeal.Pay

end
-- ==== Proof.KernelBlock.lean ====
/-
  What the kernel body leaves in its output block, as one function of the block index.

  The body stores three rectangles of the [1024, 1152] block: column 0, columns 1 to 1024, and the last 127
  columns.  Together they tile the block, and each stored value is the restriction to its rectangle of ONE function
  of the block index (row, column): the split arrangement's result row of that row of the x block at the column,
  for a column below 1025, and zero for a padding column.  So the block the body leaves is that function, whatever
  the order of the stores.
-/
import proofs.«123302_g38981123178868_cont_8to1_b_1868_10_alg».proof.Proof.KernelPay
import proofs.«123302_g38981123178868_cont_8to1_b_1868_10_alg».proof.Proof.Gen.KernelIdeal.Frame
import Idealize.ShloMosaic.Lib.Pipeline.Value
import Idealize.ShloMosaic.Lib.Tactic

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Pay Cert.Proof.RowMath Cert.Proof.Spec

/-- A padded result row: the split arrangement's row at a column below 1025, zero from column 1025 on. -/
def blkVal (row : Fin 2048 → EReal) (w : Fin 1024 → EReal) (k : ℕ) : EReal :=
  if hk : k < 1025 then kerRow row w ⟨k, hk⟩ else 0

/-- Column 0 holds the extra entry's share, -/
theorem blkVal_zero (row : Fin 2048 → EReal) (w : Fin 1024 → EReal) : blkVal row w 0 = head (z2 row w) (z1 row) := by
  unfold blkVal
  rw [dif_pos (by omega : 0 < 1025)]
  unfold kerRow
  rw [dif_pos rfl]

/-- column c + 1 entry c's share, -/
theorem blkVal_succ (row : Fin 2048 → EReal) (w : Fin 1024 → EReal) (c : Fin 1024) :
    blkVal row w (1 + c.val) = tail (z2 row w) (z1 row) c := by
  have hc := c.isLt
  unfold blkVal
  rw [dif_pos (by omega : 1 + c.val < 1025)]
  unfold kerRow
  rw [dif_neg (by show ¬ (1 + c.val = 0); omega)]
  congr 1
  apply Fin.ext
  show 1 + c.val - 1 = c.val
  omega

/-- and a padding column zero. -/
theorem blkVal_pad (row : Fin 2048 → EReal) (w : Fin 1024 → EReal) (j : ℕ) : blkVal row w (1025 + j) = 0 := by
  unfold blkVal
  rw [dif_neg (by omega)]

/-- The output block as a function of the two input blocks: row by row, the padded result row. -/
def Gblk (x0 : Vec Ideal S1024x2048 .f32) (x1 : Vec Ideal S1x1024 .f32) : Vec Ideal S1024x1152 .f32 :=
  fun y => blkVal (brow x0 (y 0)) (bw x1) (y 1).val

/-- The whole padded result array as a function of the two argument arrays. -/
def Gpad (X : (⟨2, ![8192, 2048]⟩ : Shape).Idx → EReal) (W : (⟨1, ![1024]⟩ : Shape).Idx → EReal) :
    (⟨2, ![8192, 1152]⟩ : Shape).Idx → EReal :=
  fun i => blkVal (rowOf X (i 0)) (wOf W) (i 1).val

theorem hz : (![0, 0] : Fin 2 → Nat) = fun _ => 0 := funext fun a => by fin_cases a <;> rfl

/-! ## Each stored rectangle holds the block function -/

/-- Column 0. -/
theorem piece_col0 (x0 : Vec Ideal S1024x2048 .f32) (x1 : Vec Ideal S1x1024 .f32)
    (inb : ∀ a, (![0, 0] : Fin 2 → Nat) a + (![1024, 1] : Fin 2 → Nat) a ≤ S1024x1152.size a) (x : S1024x1.Idx) :
    k0_pay8 x0 x1 x = Gblk x0 x1 ((Rect.unit (s := S1024x1152) ![0, 0] ![1024, 1] inb).emb x) := by
  obtain ⟨r, u, rfl⟩ : ∃ (r : Fin 1024) (u : Fin 1), x = ix2 r u := ⟨x 0, x 1, eq_ix2 x⟩
  have hu : u.val = 0 := by omega
  rw [pay8_apply]
  unfold Gblk
  have e0 : ((Rect.unit (s := S1024x1152) ![0, 0] ![1024, 1] inb).emb (ix2 r u)) 0 = r :=
    Fin.ext (by show 0 + 1 * r.val = r.val; omega)
  have e1 : (((Rect.unit (s := S1024x1152) ![0, 0] ![1024, 1] inb).emb (ix2 r u)) 1).val = 0 := by
    show 0 + 1 * u.val = 0; omega
  rw [e0, e1, blkVal_zero]

/-- Columns 1 to 1024. -/
theorem piece_cols (x0 : Vec Ideal S1024x2048 .f32) (x1 : Vec Ideal S1x1024 .f32)
    (inb : ∀ a, (![0, 1] : Fin 2 → Nat) a + (![1024, 1024] : Fin 2 → Nat) a ≤ S1024x1152.size a) (x : S1024x1024.Idx) :
    k0_pay9 x0 x1 x = Gblk x0 x1 ((Rect.unit (s := S1024x1152) ![0, 1] ![1024, 1024] inb).emb x) := by
  obtain ⟨r, c, rfl⟩ : ∃ (r : Fin 1024) (c : Fin 1024), x = ix2 r c := ⟨x 0, x 1, eq_ix2 x⟩
  rw [pay9_apply]
  unfold Gblk
  have e0 : ((Rect.unit (s := S1024x1152) ![0, 1] ![1024, 1024] inb).emb (ix2 r c)) 0 = r :=
    Fin.ext (by show 0 + 1 * r.val = r.val; omega)
  have e1 : (((Rect.unit (s := S1024x1152) ![0, 1] ![1024, 1024] inb).emb (ix2 r c)) 1).val = 1 + c.val := by
    show 1 + 1 * c.val = 1 + c.val; omega
  rw [e0, e1, blkVal_succ]

/-- The padding columns. -/
theorem piece_pad (x0 : Vec Ideal S1024x2048 .f32) (x1 : Vec Ideal S1x1024 .f32)
    (inb : ∀ a, (![0, 1025] : Fin 2 → Nat) a + (![1024, 127] : Fin 2 → Nat) a ≤ S1024x1152.size a) (x : S1024x127.Idx) :
    k0_pay10 (F := Ideal) x = Gblk x0 x1 ((Rect.unit (s := S1024x1152) ![0, 1025] ![1024, 127] inb).emb x) := by
  obtain ⟨r, c, rfl⟩ : ∃ (r : Fin 1024) (c : Fin 127), x = ix2 r c := ⟨x 0, x 1, eq_ix2 x⟩
  rw [pay10_apply]
  unfold Gblk
  have e1 : (((Rect.unit (s := S1024x1152) ![0, 1025] ![1024, 127] inb).emb (ix2 r c)) 1).val = 1025 + c.val := by
    show 1025 + 1 * c.val = 1025 + c.val; omega
  rw [e1, blkVal_pad]

/-! ## The block the body leaves -/

/-- The run's three stored pieces, read back, are the block function of the two loaded blocks. -/
theorem out_A (c : Dev nD) (i : grid0.Coords) (a1 : Memref sig .tc .vmem S1024x2048 .f32) (h1 : a1.IsWhole)
    (a2 : Memref sig .tc .vmem S1x1024 .f32) (h2 : a2.IsWhole) (a3 : Memref sig .tc .vmem S1024x1152 .f32) (h3 : a3.IsWhole)
    (x0 : Vec Ideal S1024x2048 .f32) (x1 : Vec Ideal S1x1024 .f32) :
    out0_A_2 c i a1 h1 a2 h2 a3 h3 x0 x1 = Gblk x0 x1 := by
  unfold out0_A_2
  rw [View.read_writes_eq_canon _ _ _ (cover0_A_2 c i a1 h1 a2 h2 a3 h3 x0 x1)]
  funext y
  refine View.canon_apply_of_pieces (Gblk x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S1024x2048) hz,
    View.ld_unit_zero (S := S1x1024) hz]
  intro p hp
  simp only [List.mem_cons, List.mem_nil_iff, or_false] at hp
  rcases hp with rfl | rfl | rfl
  · intro x; exact piece_pad x0 x1 inb_S1024x1152_S1024x127_0_1025 x
  · intro x; exact piece_cols x0 x1 inb_S1024x1152_S1024x1024_0_1 x
  · intro x; exact piece_col0 x0 x1 inb_S1024x1152_S1024x1_0_0 x

end Cert.KernelIdeal.KValue

end
-- ==== Proof.BlockIn.lean ====
/-
  What the kernel's two input blocks hold at grid point t, at the ideal instance.

  The grid has 8 points.  The x window cuts the [8192, 2048] array into blocks of 1024 rows and all 2048 columns, at
  block index (t, 0): an element of a block sits in the array at index times block size plus its coordinate inside
  the block, so row r of the block at point t is row 1024 t + r of x, column for column.  The weights window takes
  its [1, 1024] array whole at block index (0, 0) at every point, and that array is w recast from [1024] to one row
  before the grid starts: the block at (u, k) is w at k.
-/
import proofs.«123302_g38981123178868_cont_8to1_b_1868_10_alg».proof.Proof.KernelBlock
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockIn

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The printed index maps over the grid: x and the output move down one block per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block at point t, at row r and column k, is x at row 1024 t + r and column k. -/
theorem iblk0_apply (c : Dev nD) (t : Fin cfg0.N) (r : Fin 1024) (k : Fin 2048) (R : Fin 8192)
    (hR : R.val = 1024 * t.val + r.val) :
    (iblk m c 0 t : Vec Ideal S1024x2048 .f32) (ix2 r k)
      = (m ((c.tc : Thread nD τ).loc main_arg0) : S8192x2048.Idx → EReal) (ix2 R k) := by
  have hi := idx_facts t
  unfold iblk
  rw [View.read_apply]
  show V m c main_arg0 _ = m (c.tc.loc main_arg0) _
  rw [V_main_arg0 m c]
  refine congrArg _ ?_
  funext a
  apply Fin.ext
  match a with
  | ⟨0, _⟩ => show win0_0.index t 0 * 1024 + 1 * r.val = R.val; rw [hi.1, hR]; omega
  | ⟨1, _⟩ => show win0_0.index t 1 * 2048 + 1 * k.val = k.val; rw [hi.2.1]; omega

/-- Row r of the x block at point t is row 1024 t + r of x. -/
theorem brow_iblk (c : Dev nD) (t : Fin cfg0.N) (r : Fin 1024) (R : Fin 8192) (hR : R.val = 1024 * t.val + r.val) :
    Cert.KernelIdeal.Pay.brow (iblk m c 0 t : Vec Ideal S1024x2048 .f32) r
      = Cert.Proof.Spec.rowOf (m ((c.tc : Thread nD τ).loc main_arg0)) R :=
  funext fun k => iblk0_apply m c t r k R hR

/-- The array the weights window is cut from, as the region finds it, is w recast to one row. -/
theorem V_main_v0 (c : Dev nD) :
    (V m c main_v0 : S1x1024.Idx → EReal)
      = shapeCast S1x1024 (m ((c.tc : Thread nD τ).loc main_arg1)) shapeCasts_S1024_S1x1024 := by
  show StableHlo.after hostOps0 (fun b => m (c, b)) (Proc.devRef .tc main_v0) = _
  after_results
  rfl

/-- The weights block at every point, at (u, k), is w at k. -/
theorem iblk1_apply (c : Dev nD) (t : Fin cfg0.N) (u : Fin 1) (k : Fin 1024) :
    (iblk m c 1 t : Vec Ideal S1x1024 .f32) (ix2 u k)
      = (m ((c.tc : Thread nD τ).loc main_arg1) : S1024.Idx → EReal) (ix1 k) := by
  have hi := idx_facts t
  unfold iblk
  rw [View.read_apply]
  show V m c main_v0 _ = _
  rw [V_main_v0 m c]
  refine Eq.trans (congrArg _ ?_) (shapeCast_a_1a_apply _ shapeCasts_S1024_S1x1024 u k)
  funext a
  apply Fin.ext
  match a with
  | ⟨0, _⟩ => show win0_1.index t 0 * 1 + 1 * u.val = u.val; rw [hi.2.2.1]; omega
  | ⟨1, _⟩ => show win0_1.index t 1 * 1024 + 1 * k.val = k.val; rw [hi.2.2.2.1]; omega

/-- The weights block at every point holds w: the array it is cut from is w recast to one row. -/
theorem bw_iblk (c : Dev nD) (t : Fin cfg0.N) :
    Cert.KernelIdeal.Pay.bw (iblk m c 1 t : Vec Ideal S1x1024 .f32)
      = Cert.Proof.Spec.wOf (m ((c.tc : Thread nD τ).loc main_arg1)) :=
  funext fun k => iblk1_apply m c t 0 k

end Cert.KernelIdeal.BlockIn

end
-- ==== Proof.KernelArray.lean ====
/-
  From the output blocks to the result array, and through the slice after the region.

  The output window moves down one block of 1024 rows per grid point and is written back at every point, so the
  eight blocks tile the [8192, 1152] array: row R belongs to point R / 1024.  Point t's block is the block function
  of rows 1024 t .. 1024 t + 1023 of x and of w, which is the padded result array read through that block.  So after
  the last point the array is the padded result array, and the slice of its first 1025 columns, the one host
  operation after the region, is the result in the split arrangement.
-/
import proofs.«123302_g38981123178868_cont_8to1_b_1868_10_alg».proof.Proof.BlockIn
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.KArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.KernelIdeal.KValue Cert.KernelIdeal.BlockIn
open Cert.Proof.RowMath Cert.Proof.Spec

variable (m : (ℓ : Loc nD τ sig) → Buf (Elt Ideal) ℓ) (ρ : Dev nD → PrngReg)

/-- What point `t` leaves in the output's staging buffer: the block function of the point's two input blocks. -/
theorem outsAt_eq (c : Dev nD) (t : Fin cfg0.N) :
    outsAt0 m c t = Gblk (iblk m c 0 t : Vec Ideal S1024x2048 .f32) (iblk m c 1 t : Vec Ideal S1x1024 .f32) := by
  unfold outsAt0
  exact out_A c _ _ _ _ _ _ _ _ _

/-- WHAT POINT `t` WRITES BACK is block `t` of the padded result array of the two arguments. -/
theorem flushed_eq (c : Dev nD) (t : Fin cfg0.N) :
    (dats m 0 c).flushed 2 t = ((cfg0.win 2).blk t).view.read (Elt Ideal)
      (Gpad (m ((c.tc : Thread nD τ).loc main_arg0)) (m ((c.tc : Thread nD τ).loc main_arg1))) := by
  show (cfg0.win 2).cut (grid0.coords t) ((dats m 0 c).after 2 t) = _
  rw [after0_2, outsAt_eq]
  funext y
  obtain ⟨r, k, rfl⟩ : ∃ (r : Fin 1024) (k : Fin 1152), y = ix2 r k := ⟨y 0, y 1, eq_ix2 y⟩
  obtain ⟨-, -, -, -, e4, e5⟩ := idx_facts t
  have ht : t.val < 8 := lt_of_lt_of_eq t.isLt (show cfg0.N = 8 from N_0)
  have hr := r.isLt
  have e0 : ((((cfg0.win 2).blk t).view.emb (ix2 r k)) 0).val = 1024 * t.val + r.val := by
    show win0_2.index t (0 : Fin 2) * 1024 + 1 * r.val = _
    rw [e4]; omega
  have e1 : ((((cfg0.win 2).blk t).view.emb (ix2 r k)) 1).val = k.val := by
    show win0_2.index t (1 : Fin 2) * 1152 + 1 * k.val = _
    rw [e5]; omega
  show blkVal (brow (iblk m c 0 t : Vec Ideal S1024x2048 .f32) r) (bw (iblk m c 1 t : Vec Ideal S1x1024 .f32)) k.val
    = blkVal (rowOf (m ((c.tc : Thread nD τ).loc main_arg0)) ((((cfg0.win 2).blk t).view.emb (ix2 r k)) 0))
        (wOf (m ((c.tc : Thread nD τ).loc main_arg1))) ((((cfg0.win 2).blk t).view.emb (ix2 r k)) 1).val
  rw [brow_iblk m c t r ((((cfg0.win 2).blk t).view.emb (ix2 r k)) 0) e0, bw_iblk m c t, e1]

/-- An index of the array is in point `t`'s block iff each coordinate is in the block's range on its axis. -/
theorem mem_blk (t : Fin cfg0.N) (i : S8192x1152.Idx) :
    i ∈ ((cfg0.win 2).blk t).view.set ↔ ∀ a : Fin 2, win0_2.index t a * S1024x1152.size a ≤ (i a).val
      ∧ (i a).val < win0_2.index t a * S1024x1152.size a + S1024x1152.size a := by
  show i ∈ ((View.whole main_v1).slice (win0_2.rect t)).set ↔ _
  rw [View.set_slice_whole, Rect.mem_set_unit]
  exact Iff.rfl

/-- Every index of the array is in the block of the point its row names: row R is in block R / 1024. -/
theorem cover (i : S8192x1152.Idx) :
    ∃ t : Fin cfg0.N, (cfg0.win 2).flush t = true ∧ i ∈ ((cfg0.win 2).blk t).view.set := by
  have hi0 : (i 0).val < 8192 := (i 0).isLt
  have hi1 : (i 1).val < 1152 := (i 1).isLt
  have hN : cfg0.N = 8 := N_0
  have hq : (i 0).val / 1024 < cfg0.N := by rw [hN]; omega
  refine ⟨⟨(i 0).val / 1024, hq⟩, flush0_2 _, ?_⟩
  rw [mem_blk]
  obtain ⟨-, -, -, -, e4, e5⟩ := idx_facts ⟨(i 0).val / 1024, hq⟩
  intro a
  match a with
  | ⟨0, _⟩ =>
    show win0_2.index ⟨(i 0).val / 1024, hq⟩ (0 : Fin 2) * 1024 ≤ (i 0).val
      ∧ (i 0).val < win0_2.index ⟨(i 0).val / 1024, hq⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, hq⟩ (1 : Fin 2) * 1152 ≤ (i 1).val
      ∧ (i 1).val < win0_2.index ⟨(i 0).val / 1024, hq⟩ (1 : Fin 2) * 1152 + 1152
    rw [e5]
    omega

/-- THE ARRAY after the last point: the padded result array of the two arguments. -/
theorem final (c : Dev nD) : (dats m 0 c).arrAt 2 cfg0.N
    = Gpad (m ((c.tc : Thread nD τ).loc main_arg0)) (m ((c.tc : Thread nD τ).loc main_arg1)) :=
  (dats m 0 c).arrAt_eq_of_cover 2 _ (fun t _ => flushed_eq m c t) cover

/-- The slice after the region keeps the first 1025 columns: the result in the split arrangement. -/
theorem tail_eq (c : Dev nD) : Pipeline.afterTail₀ cfgs (dats m) 0 (V0 m) [hostOps1] c main_v2
    = Gker (m ((c.tc : Thread nD τ).loc main_arg0)) (m ((c.tc : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.tc.devRef main_v1)
      = Gpad (m ((c.tc : Thread nD τ).loc main_arg0)) (m ((c.tc : Thread nD τ).loc main_arg1)) :=
    (Pipeline.withArrays_arr spec0 launch0.win.arr_inj c _ _ 2).trans (final m c)
  rw [hA]
  funext j
  obtain ⟨r, k, rfl⟩ : ∃ (r : Fin 8192) (k : Fin 1025), j = ix2 r k := ⟨j 0, j 1, eq_ix2 j⟩
  have hk := k.isLt
  rw [slice2_axis1_apply 0 _ _ r k ⟨k.val, by omega⟩ (by show k.val = 0 + k.val; omega)]
  show blkVal _ _ k.val = kerRow _ _ k
  unfold blkVal
  rw [dif_pos hk]

/-- The run, read: the result at the split arrangement's function of the two arguments, the arguments unchanged. -/
theorem run : θ_run defs (onTc (τ := τ) (main (F := Ideal))) ⟨m, fun _ => 0, ρ⟩ fun r => ∀ c : Dev nD,
      r.2.mem ((c.tc : Thread nD τ).loc main_v2)
        = Gker (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KArray

end
-- ==== Proof.lean ====
/-
  The certificate of a row softmax kernel against its reference, on the extended reals.

  Both programs take x of shape [8192, 2048] and w of shape [1024].  For every row they multiply the two halves of
  the row entry by entry into 1024 products p_c, form z1 = 1 - sum_c p_c and z2_c = p_c * w_c, and return the softmax
  of the 1025 numbers (z1, z2_0, ..., z2_1023).

  The reference takes the maximum and the sum over all 1025 entries at once (after dividing every entry by one) and
  ends with a quotient by the sum.  The kernel works on blocks of 1024 rows; it takes the maximum of the 1024 entries
  z2 and then against z1, adds the exponential of z1 to the sum of the other exponentials, multiplies by the
  reciprocal of that sum, writes a block padded with zeros to 1152 columns, and a slice after the kernel keeps the
  first 1025 columns.

  The two results are the same function of (x, w) wherever all entries of x and w are real numbers, which is what
  the precondition says: splitting the first entry off a maximum or a sum changes nothing on the extended reals, and
  a quotient by S is the product with the reciprocal of S once S is not zero; here S is at least the exponential of
  z1 less the maximum, a positive number because z1 and the maximum are finite.

  The three frame claims are the generated frames (for the reference: its generated run with the result dropped);
  the ideal pass rewrote nothing, so the fourth claim is trivial; the fifth is assembled from the kernel's run read
  as a value, the reference's run read as a value, the finiteness the precondition gives, and the row mathematics.
-/
import proofs.«123302_g38981123178868_cont_8to1_b_1868_10_alg».proof.Defs
import proofs.«123302_g38981123178868_cont_8to1_b_1868_10_alg».proof.Proof.Gen.Kernel
import proofs.«123302_g38981123178868_cont_8to1_b_1868_10_alg».proof.Proof.Gen.Kernel.Skeleton
import proofs.«123302_g38981123178868_cont_8to1_b_1868_10_alg».proof.Proof.Gen.Kernel.Launch
import proofs.«123302_g38981123178868_cont_8to1_b_1868_10_alg».proof.Proof.Gen.Kernel.Points
import proofs.«123302_g38981123178868_cont_8to1_b_1868_10_alg».proof.Proof.Gen.Kernel.Frame
import proofs.«123302_g38981123178868_cont_8to1_b_1868_10_alg».proof.Proof.Gen.KernelIdeal
import proofs.«123302_g38981123178868_cont_8to1_b_1868_10_alg».proof.Proof.Gen.KernelIdeal.Skeleton
import proofs.«123302_g38981123178868_cont_8to1_b_1868_10_alg».proof.Proof.Gen.KernelIdeal.Launch
import proofs.«123302_g38981123178868_cont_8to1_b_1868_10_alg».proof.Proof.Gen.KernelIdeal.Points
import proofs.«123302_g38981123178868_cont_8to1_b_1868_10_alg».proof.Proof.Gen.KernelIdeal.Frame
import proofs.«123302_g38981123178868_cont_8to1_b_1868_10_alg».proof.Proof.Gen.ReferenceIdeal
import proofs.«123302_g38981123178868_cont_8to1_b_1868_10_alg».proof.Proof.Gen.ReferenceIdeal.Run
import proofs.«123302_g38981123178868_cont_8to1_b_1868_10_alg».proof.Proof.Gen.ReferenceIdeal.Read
import proofs.«123302_g38981123178868_cont_8to1_b_1868_10_alg».proof.Proof.Gen.Pre_finite_inputs
import proofs.«123302_g38981123178868_cont_8to1_b_1868_10_alg».proof.Proof.KernelArray
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing to preserve. -/
theorem preserves : Cert.preserves_Kernel_KernelIdeal := trivial

/-- From memories that agree on x and w, with every entry finite, the two programs end with the same result: the
    kernel's is the split arrangement of every row's softmax, the reference's the all-at-once arrangement, and on
    real inputs the two arrangements are one function. -/
theorem algebraic : Cert.algebraic_KernelIdeal_ReferenceIdeal := by
  intro m ρ m' ρ' hpre hagree
  refine ⟨fun c => Cert.Proof.Spec.Gker
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KArray.run m ρ, ?_⟩
  refine (θ_run Cert.ReferenceIdeal.defs _ _).mono (fun _ h c => ⟨?_, (h c).2⟩)
    (Cert.ReferenceIdeal.Value.run (F := Ideal) m' ρ')
  obtain ⟨hX, hW⟩ := Cert.Proof.FiniteInputs.real_of_pre _ _ (hpre c)
  rw [(h c).1, Cert.ReferenceIdeal.Read.val_main_v24_eq, Cert.ReferenceIdeal.RefValue.val_eq_Gref, (hagree c).1,
    (hagree c).2]
  exact (Cert.Proof.Spec.Gker_eq_Gref _ _ hX hW).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
